-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v10)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v10) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v24) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16x1x1x1048576 : Shape := ⟨4, ![16, 1, 1, 1048576]⟩
abbrev S513x1024 : Shape := ⟨2, ![513, 1024]⟩
abbrev S_ : Shape := ⟨0, ![]⟩

class Facts : Prop where
  bcast_S_S16x1x1x1048576 : S_.BroadcastsInDim S16x1x1x1048576 (![] : Fin 0 → Fin S16x1x1x1048576.rank)
  reducesTo_S16x1x1x1048576_S_d0_1_2_3 : S16x1x1x1048576.ReducesTo [0, 1, 2, 3] S_
  h_S_ : 0 < S_.numel
  bcast_S_S513x1024 : S_.BroadcastsInDim S513x1024 (![] : Fin 0 → Fin S513x1024.rank)
  reducesTo_S513x1024_S_d0_1 : S513x1024.ReducesTo [0, 1] S_

variable [Facts]

def fn {F : FTy → Type} [FloatOps F] (main_arg0 : FVec F S16x1x1x1048576 .f32) (main_arg1 : FVec F S513x1024 .f32) (main_arg2 : FVec F S513x1024 .f32) : IVec S_ 1 :=
  let main_v0 : FVec F S16x1x1x1048576 .f32 := Host.absf main_arg0
  let main_cst : FVec F S_ .f32 := constant S_ .f32 0x7F800000#32
  let main_v1 : FVec F S16x1x1x1048576 .f32 := broadcastInDim S16x1x1x1048576 ![] bcast_S_S16x1x1x1048576 main_cst
  let main_v2 : IVec S16x1x1x1048576 1 := cmpf .olt main_v0 main_v1
  let main_c : IVec S_ 1 := constantI S_ 1 1#1
  let main_v3 : IVec S_ 1 := (fun x v => Host.reduce IntOp.andi x v reducesTo_S16x1x1x1048576_S_d0_1_2_3 h_S_) main_v2 main_c
  let main_v4 : FVec F S513x1024 .f32 := Host.absf main_arg1
  let main_cst_0 : FVec F S_ .f32 := constant S_ .f32 0x7F800000#32
  let main_v5 : FVec F S513x1024 .f32 := broadcastInDim S513x1024 ![] bcast_S_S513x1024 main_cst_0
  let main_v6 : IVec S513x1024 1 := cmpf .olt main_v4 main_v5
  let main_c_1 : IVec S_ 1 := constantI S_ 1 1#1
  let main_v7 : IVec S_ 1 := (fun x v => Host.reduce IntOp.andi x v reducesTo_S513x1024_S_d0_1 h_S_) main_v6 main_c_1
  let main_v8 : IVec S_ 1 := andi main_v3 main_v7
  let main_v9 : FVec F S513x1024 .f32 := Host.absf main_arg2
  let main_cst_2 : FVec F S_ .f32 := constant S_ .f32 0x7F800000#32
  let main_v10 : FVec F S513x1024 .f32 := broadcastInDim S513x1024 ![] bcast_S_S513x1024 main_cst_2
  let main_v11 : IVec S513x1024 1 := cmpf .olt main_v9 main_v10
  let main_c_3 : IVec S_ 1 := constantI S_ 1 1#1
  let main_v12 : IVec S_ 1 := (fun x v => Host.reduce IntOp.andi x v reducesTo_S513x1024_S_d0_1 h_S_) main_v11 main_c_3
  let main_v13 : IVec S_ 1 := andi main_v8 main_v12
  main_v13
-- ==== Kernel.lean ====
abbrev S16x1x1x1048576 : Shape := ⟨4, ![16, 1, 1, 1048576]⟩
abbrev S513x1024 : Shape := ⟨2, ![513, 1024]⟩
abbrev S16x2048x512 : Shape := ⟨3, ![16, 2048, 512]⟩
abbrev S513x512 : Shape := ⟨2, ![513, 512]⟩
abbrev S2x16x513x2047 : Shape := ⟨4, ![2, 16, 513, 2047]⟩
abbrev S1x2048x512 : Shape := ⟨3, ![1, 2048, 512]⟩
abbrev S2x1x513x2047 : Shape := ⟨4, ![2, 1, 513, 2047]⟩
abbrev S2048x512 : Shape := ⟨2, ![2048, 512]⟩
abbrev S513x2048 : Shape := ⟨2, ![513, 2048]⟩
abbrev S513x2047 : Shape := ⟨2, ![513, 2047]⟩
abbrev S1x1x513x2047 : Shape := ⟨4, ![1, 1, 513, 2047]⟩
abbrev S2x16x513x1x2047 : Shape := ⟨5, ![2, 16, 513, 1, 2047]⟩

abbrev nBuf : Space → Nat
  | .hbm => 14
  | .vmem => 8
  | .smem => 0
  | _ => 0

abbrev bufTy : (tb : Table) → Fin (tcTables nBuf tb) → BufTy
  | .hbm, ⟨0, _⟩ => ⟨S16x1x1x1048576, .f32⟩
  | .hbm, ⟨1, _⟩ => ⟨S513x1024, .f32⟩
  | .hbm, ⟨2, _⟩ => ⟨S513x1024, .f32⟩
  | .hbm, ⟨3, _⟩ => ⟨S16x2048x512, .f32⟩
  | .hbm, ⟨4, _⟩ => ⟨S513x512, .f32⟩
  | .hbm, ⟨5, _⟩ => ⟨S513x512, .bf16⟩
  | .hbm, ⟨6, _⟩ => ⟨S513x512, .f32⟩
  | .hbm, ⟨7, _⟩ => ⟨S513x512, .bf16⟩
  | .hbm, ⟨8, _⟩ => ⟨S513x512, .f32⟩
  | .hbm, ⟨9, _⟩ => ⟨S513x512, .bf16⟩
  | .hbm, ⟨10, _⟩ => ⟨S513x512, .f32⟩
  | .hbm, ⟨11, _⟩ => ⟨S513x512, .bf16⟩
  | .hbm, ⟨12, _⟩ => ⟨S2x16x513x2047, .f32⟩
  | .hbm, ⟨13, _⟩ => ⟨S2x16x513x1x2047, .f32⟩
  | .local _ .vmem, ⟨0, _⟩ => ⟨S1x2048x512, .f32⟩
  | .local _ .vmem, ⟨1, _⟩ => ⟨S1x2048x512, .f32⟩
  | .local _ .vmem, ⟨2, _⟩ => ⟨S513x512, .bf16⟩
  | .local _ .vmem, ⟨3, _⟩ => ⟨S513x512, .bf16⟩
  | .local _ .vmem, ⟨4, _⟩ => ⟨S513x512, .bf16⟩
  | .local _ .vmem, ⟨5, _⟩ => ⟨S513x512, .bf16⟩
  | .local _ .vmem, ⟨6, _⟩ => ⟨S2x1x513x2047, .f32⟩
  | .local _ .vmem, ⟨7, _⟩ => ⟨S2x1x513x2047, .f32⟩
  | _, _ => ⟨S16x1x1x1048576, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7

abbrev nD : Nat := 1
abbrev τ : Topo := Topo.v7x

variable {F : FTy → Type} [FloatOps F]

abbrev grid0 : Pipeline.Grid := ⟨1, ![16], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, arg0.toNat, c0_i32_0.toNat, c0_i32_1.toNat]

abbrev stage0_0 : Fin 2 → Memref sig .tc .vmem S1x2048x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S513x512 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S513x512 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S513x512 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S513x512 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S2x1x513x2047 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

class Facts₀ : Prop where
  shapeCasts_S16x1x1x1048576_S16x2048x512 : S16x1x1x1048576.ShapeCasts S16x2048x512
  slices_S513x1024_S513x512_0_0 : S513x1024.Slices ![0, 0] S513x512
  bitsLt_bf16_f32 : FTy.bits .bf16 < FTy.bits .f32
  slices_S513x1024_S513x512_0_512 : S513x1024.Slices ![0, 512] S513x512
  inb_S1x2048x512_S1x2048x512_0_0_0 : ∀ a, (![0, 0, 0] : Fin 3 → Nat) a + S1x2048x512.size a ≤ S1x2048x512.size a
  h_S1x2048x512 : 0 < S1x2048x512.numel
  shapeCasts_S1x2048x512_S2048x512 : S1x2048x512.ShapeCasts S2048x512
  rotates_S2048x512_d0 : S2048x512.Rotates 0 none
  inb_S513x512_S513x512_0_0 : ∀ a, (![0, 0] : Fin 2 → Nat) a + S513x512.size a ≤ S513x512.size a
  h_S513x512 : 0 < S513x512.numel
  shapeCasts_S513x512_S513x512 : S513x512.ShapeCasts S513x512
  slices_S513x2048_o0_0_S513x2047 : S513x2048.Slices ![0, 0] S513x2047
  inb_S2x1x513x2047_S1x1x513x2047_0_0_0_0 : ∀ a, (![0, 0, 0, 0] : Fin 4 → Nat) a + S1x1x513x2047.size a ≤ S2x1x513x2047.size a
  h_S1x1x513x2047 : 0 < S1x1x513x2047.numel
  shapeCasts_S1x1x513x2047_S513x2047 : S1x1x513x2047.ShapeCasts S513x2047
  shapeCasts_S513x2047_S1x1x513x2047 : S513x2047.ShapeCasts S1x1x513x2047
  inb_S2x1x513x2047_S1x1x513x2047_1_0_0_0 : ∀ a, (![1, 0, 0, 0] : Fin 4 → Nat) a + S1x1x513x2047.size a ≤ S2x1x513x2047.size a
  shapeCasts_S2x16x513x2047_S2x16x513x1x2047 : S2x16x513x2047.ShapeCasts S2x16x513x1x2047
  dot_S513x512_S2048x512_S513x2048_1_1_0_0_n_n_wf : DotDims.WF S513x512 S2048x512 S513x2048 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x2048x512.size a ≤ S16x2048x512.size a
  hwx0_0 : ∀ i : grid0.Coords, EltTy.bits .f32 = 32 ∨ (Rect.block (s := S16x2048x512) S1x2048x512.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S513x512.size a ≤ S513x512.size a
  hwx0_1 : ∀ i : grid0.Coords, EltTy.bits .bf16 = 32 ∨ (Rect.block (s := S513x512) S513x512.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S513x512.size a ≤ S513x512.size a
  hwx0_2 : ∀ i : grid0.Coords, EltTy.bits .bf16 = 32 ∨ (Rect.block (s := S513x512) S513x512.size (cc0_transform_2 i) (hinb0_2 i)).WholeWords (EltTy.packing .bf16)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S513x512.size a ≤ S513x512.size a
  hwx0_3 : ∀ i : grid0.Coords, EltTy.bits .bf16 = 32 ∨ (Rect.block (s := S513x512) S513x512.size (cc0_transform_3 i) (hinb0_3 i)).WholeWords (EltTy.packing .bf16)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S513x512.size a ≤ S513x512.size a
  hwx0_4 : ∀ i : grid0.Coords, EltTy.bits .bf16 = 32 ∨ (Rect.block (s := S513x512) S513x512.size (cc0_transform_4 i) (hinb0_4 i)).WholeWords (EltTy.packing .bf16)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S2x1x513x2047.size a ≤ S2x16x513x2047.size a
  hwx0_5 : ∀ i : grid0.Coords, EltTy.bits .f32 = 32 ∨ (Rect.block (s := S2x16x513x2047) S2x1x513x2047.size (cc0_transform_5 i) (hinb0_5 i)).WholeWords (EltTy.packing .f32)

variable [Facts₀]

def dot_S513x512_S2048x512_S513x2048_1_1_0_0_n_n : DotDims S513x512 S2048x512 S513x2048 where
  lhsContracting := [1]
  rhsContracting := [1]
  lhsNonContracting := [0]
  rhsNonContracting := [0]
  lhsBatch := []
  rhsBatch := []
  wf := dot_S513x512_S2048x512_S513x2048_1_1_0_0_n_n_wf

abbrev win0_0 : Pipeline.Window sig grid0 :=
  Pipeline.Window.ofSpec (Memref.whole main_v0) S1x2048x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v2) S513x512.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v4) S513x512.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v6) S513x512.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v8) S513x512.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v9) S2x1x513x2047.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

class Facts : Prop extends Facts₀ where

variable [Facts]
-- ==== ReferenceIdeal.lean ====
abbrev S16x1x1x1048576 : Shape := ⟨4, ![16, 1, 1, 1048576]⟩
abbrev S513x1024 : Shape := ⟨2, ![513, 1024]⟩
abbrev S2047 : Shape := ⟨1, ![2047]⟩
abbrev S_ : Shape := ⟨0, ![]⟩
abbrev S2047x1 : Shape := ⟨2, ![2047, 1]⟩
abbrev S1024 : Shape := ⟨1, ![1024]⟩
abbrev S1x1024 : Shape := ⟨2, ![1, 1024]⟩
abbrev S2047x1024 : Shape := ⟨2, ![2047, 1024]⟩
abbrev S2047x1024x1 : Shape := ⟨3, ![2047, 1024, 1]⟩
abbrev S16x1x1x2047x1024 : Shape := ⟨5, ![16, 1, 1, 2047, 1024]⟩
abbrev S16x1x2047x1024 : Shape := ⟨4, ![16, 1, 2047, 1024]⟩
abbrev S513x16x1x2047 : Shape := ⟨4, ![513, 16, 1, 2047]⟩
abbrev S16x513x1x2047 : Shape := ⟨4, ![16, 513, 1, 2047]⟩
abbrev S1x16x513x1x2047 : Shape := ⟨5, ![1, 16, 513, 1, 2047]⟩
abbrev S2x16x513x1x2047 : Shape := ⟨5, ![2, 16, 513, 1, 2047]⟩

abbrev nBuf : Space → Nat
  | .hbm => 33
  | .vmem => 0
  | .smem => 0
  | _ => 0

abbrev bufTy : (tb : Table) → Fin (tcTables nBuf tb) → BufTy
  | .hbm, ⟨0, _⟩ => ⟨S16x1x1x1048576, .f32⟩
  | .hbm, ⟨1, _⟩ => ⟨S513x1024, .f32⟩
  | .hbm, ⟨2, _⟩ => ⟨S513x1024, .f32⟩
  | .hbm, ⟨3, _⟩ => ⟨S2047, .i32⟩
  | .hbm, ⟨4, _⟩ => ⟨S_, .i32⟩
  | .hbm, ⟨5, _⟩ => ⟨S2047, .i32⟩
  | .hbm, ⟨6, _⟩ => ⟨S2047, .i32⟩
  | .hbm, ⟨7, _⟩ => ⟨S2047x1, .i32⟩
  | .hbm, ⟨8, _⟩ => ⟨S1024, .i32⟩
  | .hbm, ⟨9, _⟩ => ⟨S1x1024, .i32⟩
  | .hbm, ⟨10, _⟩ => ⟨S2047x1024, .i32⟩
  | .hbm, ⟨11, _⟩ => ⟨S2047x1024, .i32⟩
  | .hbm, ⟨12, _⟩ => ⟨S2047x1024, .i32⟩
  | .hbm, ⟨13, _⟩ => ⟨S_, .i32⟩
  | .hbm, ⟨14, _⟩ => ⟨S2047x1024, .i32⟩
  | .hbm, ⟨15, _⟩ => ⟨S2047x1024, .i1⟩
  | .hbm, ⟨16, _⟩ => ⟨S_, .i32⟩
  | .hbm, ⟨17, _⟩ => ⟨S2047x1024, .i32⟩
  | .hbm, ⟨18, _⟩ => ⟨S2047x1024, .i32⟩
  | .hbm, ⟨19, _⟩ => ⟨S2047x1024, .i32⟩
  | .hbm, ⟨20, _⟩ => ⟨S2047x1024x1, .i32⟩
  | .hbm, ⟨21, _⟩ => ⟨S16x1x1x2047x1024, .f32⟩
  | .hbm, ⟨22, _⟩ => ⟨S_, .f32⟩
  | .hbm, ⟨23, _⟩ => ⟨S16x1x2047x1024, .f32⟩
  | .hbm, ⟨24, _⟩ => ⟨S513x16x1x2047, .f32⟩
  | .hbm, ⟨25, _⟩ => ⟨S16x513x1x2047, .f32⟩
  | .hbm, ⟨26, _⟩ => ⟨S_, .f32⟩
  | .hbm, ⟨27, _⟩ => ⟨S16x1x2047x1024, .f32⟩
  | .hbm, ⟨28, _⟩ => ⟨S513x16x1x2047, .f32⟩
  | .hbm, ⟨29, _⟩ => ⟨S16x513x1x2047, .f32⟩
  | .hbm, ⟨30, _⟩ => ⟨S1x16x513x1x2047, .f32⟩
  | .hbm, ⟨31, _⟩ => ⟨S1x16x513x1x2047, .f32⟩
  | .hbm, ⟨32, _⟩ => ⟨S2x16x513x1x2047, .f32⟩
  | _, _ => ⟨S16x1x1x1048576, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_c : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_c_0 : Ref sig .tc := ⟨.hbm, 13, rfl⟩
abbrev main_v9 : Ref sig .tc := ⟨.hbm, 14, rfl⟩
abbrev main_v10 : Ref sig .tc := ⟨.hbm, 15, rfl⟩
abbrev main_c_1 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_cst : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_cst_2 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩

abbrev nD : Nat := 1
abbrev τ : Topo := Topo.v7x

variable {F : FTy → Type} [FloatOps F]

class Facts₀ : Prop where
  bcast_S_S2047 : S_.BroadcastsInDim S2047 (![] : Fin 0 → Fin S2047.rank)
  bcast_S2047_S2047x1_0 : S2047.BroadcastsInDim S2047x1 (![0] : Fin 1 → Fin S2047x1.rank)
  bcast_S1024_S1x1024_1 : S1024.BroadcastsInDim S1x1024 (![1] : Fin 1 → Fin S1x1024.rank)
  bcast_S2047x1_S2047x1024_0_1 : S2047x1.BroadcastsInDim S2047x1024 (![0, 1] : Fin 2 → Fin S2047x1024.rank)
  bcast_S1x1024_S2047x1024_0_1 : S1x1024.BroadcastsInDim S2047x1024 (![0, 1] : Fin 2 → Fin S2047x1024.rank)
  bcast_S_S2047x1024 : S_.BroadcastsInDim S2047x1024 (![] : Fin 0 → Fin S2047x1024.rank)
  bcast_S2047x1024_S2047x1024x1_0_1 : S2047x1024.BroadcastsInDim S2047x1024x1 (![0, 1] : Fin 2 → Fin S2047x1024x1.rank)
  reducesTo_S16x1x1x2047x1024_S16x1x2047x1024_d1 : S16x1x1x2047x1024.ReducesTo [1] S16x1x2047x1024
  h_S_ : 0 < S_.numel
  transposes_S513x16x1x2047_S16x513x1x2047_1_0_2_3 : S513x16x1x2047.Transposes [1, 0, 2, 3] S16x513x1x2047
  bcast_S16x513x1x2047_S1x16x513x1x2047_1_2_3_4 : S16x513x1x2047.BroadcastsInDim S1x16x513x1x2047 (![1, 2, 3, 4] : Fin 4 → Fin S1x16x513x1x2047.rank)
  concatenates_S1x16x513x1x2047_S1x16x513x1x2047_S2x16x513x1x2047_d0 : Shape.Concatenates [S1x16x513x1x2047, S1x16x513x1x2047] S2x16x513x1x2047 0
  gather_S16x1x1x1048576_S2047x1024x1_S16x1x1x2047x1024_012_3_n_n_3_2_16111_wf : GatherDims.WF S16x1x1x1048576 S2047x1024x1 S16x1x1x2047x1024 [0, 1, 2] [3] [] [3] [] 2 ![16, 1, 1, 1]
  dot_S513x1024_S16x1x2047x1024_S513x16x1x2047_1_3_0_012_n_n_wf : DotDims.WF S513x1024 S16x1x2047x1024 S513x16x1x2047 [1] [3] [0] [0, 1, 2] [] []

variable [Facts₀]

def gather_S16x1x1x1048576_S2047x1024x1_S16x1x1x2047x1024_012_3_n_n_3_2_16111 : GatherDims S16x1x1x1048576 S2047x1024x1 S16x1x1x2047x1024 where
  offsetDims := [0, 1, 2]
  collapsedSliceDims := [3]
  operandBatchingDims := []
  startIndicesBatchingDims := []
  startIndexMap := [3]
  indexVectorDim := 2
  sliceSizes := ![16, 1, 1, 1]
  wf := gather_S16x1x1x1048576_S2047x1024x1_S16x1x1x2047x1024_012_3_n_n_3_2_16111_wf
def dot_S513x1024_S16x1x2047x1024_S513x16x1x2047_1_3_0_012_n_n : DotDims S513x1024 S16x1x2047x1024 S513x16x1x2047 where
  lhsContracting := [1]
  rhsContracting := [3]
  lhsNonContracting := [0]
  rhsNonContracting := [0, 1, 2]
  lhsBatch := []
  rhsBatch := []
  wf := dot_S513x1024_S16x1x2047x1024_S513x16x1x2047_1_3_0_012_n_n_wf

class Facts : Prop extends Facts₀ where

variable [Facts]
-- ==== Proof.Spec.lean ====
/-
  The short-time Fourier transform both programs compute, as one function of the three argument arrays.

  The signal is `s : [16, 1, 1, 1048576]`; the two analysis matrices (a windowed cosine and a windowed sine
  table) are `re, im : [513, 1024]`. Frame `f` (of 2047) of batch row `b` is the 1024 consecutive samples
  starting at sample `512 · f`: tap `n` of frame `f` is sample `512 · f + n`. Output entry
  `(z, b, k, 0, f)` is the inner product of row `k` of `re` (for `z = 0`) or of `im` (for `z = 1`) with that frame.

  Because the hop (512) is exactly half the frame length (1024), a frame is two consecutive half-frames
  ("chunks" `f` and `f + 1` of 512 samples), and the inner product splits into the first 512 taps plus the last
  512 taps: `frameDot_halves`. That is the only algebraic law between the two programs; it is a regrouping of
  a finite sum in a commutative monoid, so it holds on the extended reals without any finiteness assumption.
-/
import Idealize.ShloMosaic.PureOps.Ideal
import Idealize.ShloMosaic.Lib.ValueIdx

noncomputable section

open scoped BigOperators

namespace Cert.Stft

open Idealize.ShloMosaic Idealize.ShloMosaic.ValueIdx

/-- The signal's shape, the analysis matrices' shape, and the result's shape. -/
abbrev SSig : Shape := ⟨4, ![16, 1, 1, 1048576]⟩
abbrev SDft : Shape := ⟨2, ![513, 1024]⟩
abbrev SOut : Shape := ⟨5, ![2, 16, 513, 1, 2047]⟩

/-- Tap `n` of frame `f` is sample `512 · f + n` (at most `512 · 2046 + 1023 = 1048575`). -/
def tap (f : Fin 2047) (n : Fin 1024) : Fin 1048576 :=
  ⟨512 * f.val + n.val, by have := f.isLt; have := n.isLt; omega⟩

theorem tap_val (f : Fin 2047) (n : Fin 1024) : (tap f n).val = 512 * f.val + n.val := rfl

/-- Row `k` of the analysis matrix `w` against frame `f` of batch row `b` of the signal. -/
def frameDot (w : SDft.Idx → EReal) (s : SSig.Idx → EReal) (b : Fin 16) (k : Fin 513) (f : Fin 2047) : EReal :=
  ∑ n : Fin 1024, w (ix2 k n) * s (ix4 b (0 : Fin 1) (0 : Fin 1) (tap f n))

/-- The transform: the cosine channel at `z = 0`, the sine channel at `z = 1`. -/
def stft (s : SSig.Idx → EReal) (re im : SDft.Idx → EReal) : SOut.Idx → EReal := fun j =>
  if (j 0).val = 0 then frameDot re s (j 1) (j 2) (j 4) else frameDot im s (j 1) (j 2) (j 4)

/-- A sum over 1024 taps is the sum over the first 512 plus the sum over the last 512. -/
theorem sum_halves {M : Type} [AddCommMonoid M] (g : Fin 1024 → M) :
    ∑ n : Fin 1024, g n
      = (∑ n : Fin 512, g ⟨n.val, by have := n.isLt; omega⟩) + ∑ n : Fin 512, g ⟨512 + n.val, by have := n.isLt; omega⟩ :=
  Fin.sum_univ_add (a := 512) (b := 512) g

/-- The inner product with a frame is the inner product of the matrix row's first half with the frame's first
    chunk plus that of its second half with the frame's second chunk. -/
theorem frameDot_halves (w : SDft.Idx → EReal) (s : SSig.Idx → EReal) (b : Fin 16) (k : Fin 513) (f : Fin 2047) :
    frameDot w s b k f
      = (∑ n : Fin 512, w (ix2 k (⟨n.val, by have := n.isLt; omega⟩ : Fin 1024))
            * s (ix4 b (0 : Fin 1) (0 : Fin 1) (tap f ⟨n.val, by have := n.isLt; omega⟩)))
        + ∑ n : Fin 512, w (ix2 k (⟨512 + n.val, by have := n.isLt; omega⟩ : Fin 1024))
            * s (ix4 b (0 : Fin 1) (0 : Fin 1) (tap f ⟨512 + n.val, by have := n.isLt; omega⟩)) :=
  sum_halves _

end Cert.Stft

end
-- ==== Proof.RefGather.lean ====
/-
  The reference's framing step, read at an index.

  The reference builds the integer table `idx[f, n] = 512 · f + n` (an iota scaled by the hop plus an iota of
  taps, followed by the usual wrap of a negative index, which never fires because every entry is nonnegative)
  and gathers the signal's last axis at it. The gather clamps each start index into `[0, 1048575]`; since
  `512 · f + n ≤ 512 · 2046 + 1023 = 1048575` the clamp is the identity. So the gathered array at
  `(b, 0, 0, f, n)` is the signal at `(b, 0, 0, 512 · f + n)`: tap `n` of frame `f`.
-/
import proofs.«139394_j43284680409346_2_alg».proof.Proof.Gen.ReferenceIdeal.Read
import proofs.«139394_j43284680409346_2_alg».proof.Proof.Spec
import Idealize.ShloMosaic.Lib.Affine

noncomputable section

namespace Cert.ReferenceIdeal.RefValue

open Cert.ReferenceIdeal Cert.ReferenceIdeal.Gen Cert.ReferenceIdeal.Read Idealize.ShloMosaic Idealize.ShloMosaic.TcCoe
open Idealize.ShloMosaic.ValueIdx Idealize.ShloMosaic.Affine Cert.Stft

variable {F : FTy → Type} [FloatOps F]

/-- The 32-bit word `f · 512 + n`, passed through "add `1048576` if negative", read signed is the integer
    `512 · f + n`: neither the product nor the sum wraps, and the sum is not negative. -/
theorem startWord_toInt (f n : Nat) (hf : f < 2047) (hn : n < 1024) :
    (Scalar.select (Scalar.cmpi .slt (Scalar.addi (Scalar.muli (BitVec.ofNat 32 f) (BitVec.ofNat 32 512)) (BitVec.ofNat 32 n)) (BitVec.ofNat 32 0))
      (Scalar.addi (Scalar.addi (Scalar.muli (BitVec.ofNat 32 f) (BitVec.ofNat 32 512)) (BitVec.ofNat 32 n)) (BitVec.ofNat 32 1048576))
      (Scalar.addi (Scalar.muli (BitVec.ofNat 32 f) (BitVec.ofNat 32 512)) (BitVec.ofNat 32 n))).toInt = ((512 * f + n : Nat) : Int) := by
  have h1 : IsInt (BitVec.ofNat 32 f) (f : Int) := Affine.ofNat f ⟨rfl, by omega⟩
  have h2 : IsInt (BitVec.ofNat 32 512) (512 : Int) := Affine.ofNat 512 ⟨rfl, by omega⟩
  have h3 : IsInt (Scalar.muli (BitVec.ofNat 32 f) (BitVec.ofNat 32 512)) ((f : Int) * 512) :=
    Affine.muli h1 h2 ⟨rfl, by omega, by omega⟩
  have h4 : IsInt (BitVec.ofNat 32 n) (n : Int) := Affine.ofNat n ⟨rfl, by omega⟩
  have h5 : IsInt (Scalar.addi (Scalar.muli (BitVec.ofNat 32 f) (BitVec.ofNat 32 512)) (BitVec.ofNat 32 n)) ((f : Int) * 512 + n) :=
    Affine.addi h3 h4 ⟨rfl, by omega, by omega⟩
  have h0 : IsInt (BitVec.ofNat 32 0) (0 : Int) := Affine.ofNat 0 ⟨rfl, by omega⟩
  have h6 := Affine.slt_fails h5 h0 (by omega)
  have h7 : IsInt (Scalar.select (Scalar.cmpi .slt (Scalar.addi (Scalar.muli (BitVec.ofNat 32 f) (BitVec.ofNat 32 512)) (BitVec.ofNat 32 n)) (BitVec.ofNat 32 0))
      (Scalar.addi (Scalar.addi (Scalar.muli (BitVec.ofNat 32 f) (BitVec.ofNat 32 512)) (BitVec.ofNat 32 n)) (BitVec.ofNat 32 1048576))
      (Scalar.addi (Scalar.muli (BitVec.ofNat 32 f) (BitVec.ofNat 32 512)) (BitVec.ofNat 32 n))) ((f : Int) * 512 + n) :=
    Affine.select_fails h6 (Affine.word (Scalar.addi (Scalar.addi (Scalar.muli (BitVec.ofNat 32 f) (BitVec.ofNat 32 512)) (BitVec.ofNat 32 n)) (BitVec.ofNat 32 1048576))) h5 rfl
  unfold IsInt at h7
  rw [h7]; push_cast; ring

/-- The start index the gather reads for frame `f`, tap `n`, as a signed integer. -/
theorem start_toInt (f : Fin 2047) (n : Fin 1024) :
    (val_main_v14 (F := F) (ix3 f n (0 : Fin 1))).toInt = ((512 * f.val + n.val : Nat) : Int) := by
  rw [val_main_v14_apply, val_main_v13_apply, val_main_v10_apply, val_main_v12_apply, val_main_v8_apply,
    val_main_v6_apply, val_main_v7_apply, val_main_v3_apply, val_main_v5_apply, val_main_v2_apply, val_main_v0_apply,
    val_main_v1_apply, val_main_c_apply, val_main_v4_apply, val_main_v9_apply, val_main_c_0_apply, val_main_v11_apply,
    val_main_c_1_apply]
  exact startWord_toInt f.val n.val f.isLt n.isLt

/-- The gather's dimension numbers, under a short name. -/
abbrev GD : GatherDims S16x1x1x1048576 S2047x1024x1 S16x1x1x2047x1024 :=
  gather_S16x1x1x1048576_S2047x1024x1_S16x1x1x2047x1024_012_3_n_n_3_2_16111

/-- The gather with this program's dimension numbers, read at `(b, 0, 0, f, n)`: the operand at `(b, 0, 0, ·)`
    with last coordinate the start index at `(f, n, 0)`, read signed and clamped into `[0, 1048575]`. The three
    leading axes are offset axes of full extent (their start is `0`), the last is the collapsed, indexed one. -/
theorem gather_apply {α : Type} (x : S16x1x1x1048576.Idx → α) (idx : IVec S2047x1024x1 32) (b : Fin 16) (f : Fin 2047) (n : Fin 1024) :
    Host.gather GD x idx (ix5 b (0 : Fin 1) (0 : Fin 1) f n)
      = x (ix4 b (0 : Fin 1) (0 : Fin 1) (⟨min (idx (ix3 f n (0 : Fin 1))).toInt.toNat (1048576 - 1), by omega⟩ : Fin 1048576)) := by
  unfold Host.gather
  congr 1
  funext a
  refine Fin.ext ?_
  match a with
  | ⟨0, _⟩ =>
    show GD.start (ix5 b (0 : Fin 1) (0 : Fin 1) f n) idx (0 : Fin 4) + GD.batchCoord (ix5 b (0 : Fin 1) (0 : Fin 1) f n) (0 : Fin 4) + GD.offCoord (ix5 b (0 : Fin 1) (0 : Fin 1) f n) (0 : Fin 4) = b.val
    rw [GatherDims.batchCoord_eq_zero _ _ _ List.not_mem_nil]
    unfold GatherDims.start GatherDims.offCoord
    rw [dif_neg (by decide), dif_pos (by decide)]
    have hi : List.idxOf (0 : Fin 4) GD.sKept = 0 := by decide
    simp only [hi, Nat.zero_add, Nat.add_zero]
    rfl
  | ⟨1, _⟩ =>
    show GD.start (ix5 b (0 : Fin 1) (0 : Fin 1) f n) idx (1 : Fin 4) + GD.batchCoord (ix5 b (0 : Fin 1) (0 : Fin 1) f n) (1 : Fin 4) + GD.offCoord (ix5 b (0 : Fin 1) (0 : Fin 1) f n) (1 : Fin 4) = 0
    rw [GatherDims.batchCoord_eq_zero _ _ _ List.not_mem_nil]
    unfold GatherDims.start GatherDims.offCoord
    rw [dif_neg (by decide), dif_pos (by decide)]
    have hi : List.idxOf (1 : Fin 4) GD.sKept = 1 := by decide
    simp only [hi, Nat.zero_add, Nat.add_zero]
    rfl
  | ⟨2, _⟩ =>
    show GD.start (ix5 b (0 : Fin 1) (0 : Fin 1) f n) idx (2 : Fin 4) + GD.batchCoord (ix5 b (0 : Fin 1) (0 : Fin 1) f n) (2 : Fin 4) + GD.offCoord (ix5 b (0 : Fin 1) (0 : Fin 1) f n) (2 : Fin 4) = 0
    rw [GatherDims.batchCoord_eq_zero _ _ _ List.not_mem_nil]
    unfold GatherDims.start GatherDims.offCoord
    rw [dif_neg (by decide), dif_pos (by decide)]
    have hi : List.idxOf (2 : Fin 4) GD.sKept = 2 := by decide
    simp only [hi, Nat.zero_add, Nat.add_zero]
    rfl
  | ⟨3, _⟩ =>
    show GD.start (ix5 b (0 : Fin 1) (0 : Fin 1) f n) idx (3 : Fin 4) + GD.batchCoord (ix5 b (0 : Fin 1) (0 : Fin 1) f n) (3 : Fin 4) + GD.offCoord (ix5 b (0 : Fin 1) (0 : Fin 1) f n) (3 : Fin 4)
      = min (idx (ix3 f n (0 : Fin 1))).toInt.toNat (1048576 - 1)
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (3 : Fin 4) ∈ GD.startIndexMap
      from List.mem_singleton.mpr rfl)]
    have hsi : GD.siIdx (ix5 b (0 : Fin 1) (0 : Fin 1) f n)
        ⟨List.idxOf (3 : Fin 4) GD.startIndexMap,
          List.idxOf_lt_length_iff.2 (List.mem_singleton.mpr rfl)⟩ = ix3 f n (0 : Fin 1) := by
      funext c; refine Fin.ext ?_
      match c with
      | ⟨0, _⟩ => rfl
      | ⟨1, _⟩ => rfl
      | ⟨2, _⟩ => rfl
    rw [hsi]
    rfl

/-- The reference's gathered frames: entry `(b, 0, 0, f, n)` is tap `n` of frame `f` of batch row `b`. -/
theorem frames_apply (x0 : (⟨S16x1x1x1048576, .f32⟩ : BufTy).Contents (Elt F)) (b : Fin 16) (f : Fin 2047) (n : Fin 1024) :
    val_main_v15 (F := F) x0 (ix5 b (0 : Fin 1) (0 : Fin 1) f n) = x0 (ix4 b (0 : Fin 1) (0 : Fin 1) (tap f n)) := by
  unfold val_main_v15
  show Host.gather GD x0 (val_main_v14 (F := F)) (ix5 b (0 : Fin 1) (0 : Fin 1) f n) = _
  rw [gather_apply]
  refine congrArg x0 (congrArg (ix4 b (0 : Fin 1) (0 : Fin 1)) (Fin.ext ?_))
  show min (val_main_v14 (F := F) (ix3 f n (0 : Fin 1))).toInt.toNat (1048576 - 1) = 512 * f.val + n.val
  rw [start_toInt]
  have := f.isLt; have := n.isLt
  omega

end Cert.ReferenceIdeal.RefValue

end
-- ==== Proof.RefTransform.lean ====
/-
  The reference computes the transform of Spec.lean.

  Read from the result backwards: the result is the cosine channel stacked on the sine channel along a new leading
  axis; each channel is a transposed matrix product of an analysis matrix `[513, 1024]` with the framed signal
  `[16, 1, 2047, 1024]`, contracting the 1024 taps; the framed signal is the gathered frames (RefGather.lean) summed
  over a channel axis of extent one, from zero. At entry `(z, b, k, 0, f)` this is `Σ_{n < 1024} w (k, n) · s (b, 0, 0,
  512 · f + n)` with `w` the cosine table for `z = 0` and the sine table for `z = 1`: `Cert.Stft.stft`.
-/
import proofs.«139394_j43284680409346_2_alg».proof.Proof.RefGather

noncomputable section

open scoped BigOperators

namespace Cert.ReferenceIdeal.RefValue

open Cert.ReferenceIdeal Cert.ReferenceIdeal.Gen Cert.ReferenceIdeal.Read Idealize.ShloMosaic Idealize.ShloMosaic.TcCoe
open Idealize.ShloMosaic.ValueIdx Cert.Stft

/-- The reference's matrix product with the cosine table: at `(k, b, 0, f)` it is row `k` of the analysis matrix against frame `f` of
    batch row `b` — the sum over the unit channel axis has one term and starts from zero. -/
theorem v17_frameDot (x0 : (⟨S16x1x1x1048576, .f32⟩ : BufTy).Contents (Elt Ideal)) (w : (⟨S513x1024, .f32⟩ : BufTy).Contents (Elt Ideal))
    (b : Fin 16) (k : Fin 513) (f : Fin 2047) :
    val_main_v17 (F := Ideal) x0 w (ix4 k b (0 : Fin 1) f) = frameDot w x0 b k f := by
  rw [val_main_v17_apply]
  unfold frameDot
  refine Finset.sum_congr rfl fun n _ => ?_
  have el : lidx_main_v17 (ix4 k b (0 : Fin 1) f) n = ix2 k n := funext fun a => Fin.ext (by
    match a with
    | ⟨0, _⟩ => rfl
    | ⟨1, _⟩ => rfl)
  have er : ridx_main_v17 (ix4 k b (0 : Fin 1) f) n = ix4 b (0 : Fin 1) f n := funext fun a => Fin.ext (by
    match a with
    | ⟨0, _⟩ => rfl
    | ⟨1, _⟩ => rfl
    | ⟨2, _⟩ => rfl
    | ⟨3, _⟩ => rfl)
  have e16 : idx_main_v16 (ix4 b (0 : Fin 1) f n) (0 : Fin 1) = ix5 b (0 : Fin 1) (0 : Fin 1) f n := funext fun a => Fin.ext (by
    match a with
    | ⟨0, _⟩ => rfl
    | ⟨1, _⟩ => rfl
    | ⟨2, _⟩ => rfl
    | ⟨3, _⟩ => rfl
    | ⟨4, _⟩ => rfl)
  rw [el, er, val_main_v16_apply, Fin.sum_univ_one, e16, frames_apply, val_main_cst_apply]
  show w (ix2 k n) * (Ideal.ofBits .f32 0x00000000#32 + x0 (ix4 b (0 : Fin 1) (0 : Fin 1) (tap f n))) = _
  rw [Ideal.ofBits_zero_f32, zero_add]

/-- The reference's matrix product with the sine table: at `(k, b, 0, f)` it is row `k` of the analysis matrix against frame `f` of
    batch row `b` — the sum over the unit channel axis has one term and starts from zero. -/
theorem v20_frameDot (x0 : (⟨S16x1x1x1048576, .f32⟩ : BufTy).Contents (Elt Ideal)) (w : (⟨S513x1024, .f32⟩ : BufTy).Contents (Elt Ideal))
    (b : Fin 16) (k : Fin 513) (f : Fin 2047) :
    val_main_v20 (F := Ideal) x0 w (ix4 k b (0 : Fin 1) f) = frameDot w x0 b k f := by
  rw [val_main_v20_apply]
  unfold frameDot
  refine Finset.sum_congr rfl fun n _ => ?_
  have el : lidx_main_v20 (ix4 k b (0 : Fin 1) f) n = ix2 k n := funext fun a => Fin.ext (by
    match a with
    | ⟨0, _⟩ => rfl
    | ⟨1, _⟩ => rfl)
  have er : ridx_main_v20 (ix4 k b (0 : Fin 1) f) n = ix4 b (0 : Fin 1) f n := funext fun a => Fin.ext (by
    match a with
    | ⟨0, _⟩ => rfl
    | ⟨1, _⟩ => rfl
    | ⟨2, _⟩ => rfl
    | ⟨3, _⟩ => rfl)
  have e16 : idx_main_v19 (ix4 b (0 : Fin 1) f n) (0 : Fin 1) = ix5 b (0 : Fin 1) (0 : Fin 1) f n := funext fun a => Fin.ext (by
    match a with
    | ⟨0, _⟩ => rfl
    | ⟨1, _⟩ => rfl
    | ⟨2, _⟩ => rfl
    | ⟨3, _⟩ => rfl
    | ⟨4, _⟩ => rfl)
  rw [el, er, val_main_v19_apply, Fin.sum_univ_one, e16, frames_apply, val_main_cst_2_apply]
  show w (ix2 k n) * (Ideal.ofBits .f32 0x00000000#32 + x0 (ix4 b (0 : Fin 1) (0 : Fin 1) (tap f n))) = _
  rw [Ideal.ofBits_zero_f32, zero_add]

/-- The cosine channel as the reference lays it out (transposed to batch-major, a unit leading axis added): at
    `(0, b, k, 0, f)` it is the matrix product at `(k, b, 0, f)`. -/
theorem v22_frameDot (x0 : (⟨S16x1x1x1048576, .f32⟩ : BufTy).Contents (Elt Ideal)) (w : (⟨S513x1024, .f32⟩ : BufTy).Contents (Elt Ideal))
    (b : Fin 16) (k : Fin 513) (f : Fin 2047) :
    val_main_v22 (F := Ideal) x0 w (ix5 (0 : Fin 1) b k (0 : Fin 1) f) = frameDot w x0 b k f := by
  rw [val_main_v22_apply, val_main_v18_apply]
  have e : idx_main_v18 (idx_main_v22 (ix5 (0 : Fin 1) b k (0 : Fin 1) f)) = ix4 k b (0 : Fin 1) f := funext fun a => Fin.ext (by
    match a with
    | ⟨0, _⟩ => rfl
    | ⟨1, _⟩ => rfl
    | ⟨2, _⟩ => rfl
    | ⟨3, _⟩ => rfl)
  rw [e]
  exact v17_frameDot x0 w b k f

/-- The sine channel as the reference lays it out (transposed to batch-major, a unit leading axis added): at
    `(0, b, k, 0, f)` it is the matrix product at `(k, b, 0, f)`. -/
theorem v23_frameDot (x0 : (⟨S16x1x1x1048576, .f32⟩ : BufTy).Contents (Elt Ideal)) (w : (⟨S513x1024, .f32⟩ : BufTy).Contents (Elt Ideal))
    (b : Fin 16) (k : Fin 513) (f : Fin 2047) :
    val_main_v23 (F := Ideal) x0 w (ix5 (0 : Fin 1) b k (0 : Fin 1) f) = frameDot w x0 b k f := by
  rw [val_main_v23_apply, val_main_v21_apply]
  have e : idx_main_v21 (idx_main_v23 (ix5 (0 : Fin 1) b k (0 : Fin 1) f)) = ix4 k b (0 : Fin 1) f := funext fun a => Fin.ext (by
    match a with
    | ⟨0, _⟩ => rfl
    | ⟨1, _⟩ => rfl
    | ⟨2, _⟩ => rfl
    | ⟨3, _⟩ => rfl)
  rw [e]
  exact v20_frameDot x0 w b k f

/-- THE REFERENCE'S RESULT is the transform of the three arguments. -/
theorem reference_eq (x0 : (⟨S16x1x1x1048576, .f32⟩ : BufTy).Contents (Elt Ideal)) (x1 x2 : (⟨S513x1024, .f32⟩ : BufTy).Contents (Elt Ideal)) :
    val_main_v24 (F := Ideal) x0 x1 x2 = stft x0 x1 x2 := by
  funext j
  obtain ⟨z, b, k, u, f, rfl⟩ : ∃ (z : Fin 2) (b : Fin 16) (k : Fin 513) (u : Fin 1) (f : Fin 2047), j = ix5 z b k u f :=
    ⟨j 0, j 1, j 2, j 3, j 4, eq_ix5 j⟩
  obtain rfl : u = 0 := Subsingleton.elim _ _
  unfold val_main_v24 stft
  by_cases hz : z.val = 0
  · have hj : ((ix5 z b k (0 : Fin 1) f) 0).val = 0 := hz
    rw [if_pos hj]
    refine (concatenate_pair_apply_left (t := S2x16x513x1x2047) (s₁ := S1x16x513x1x2047) (s₂ := S1x16x513x1x2047) (0 : Fin 5) (val_main_v22 (F := Ideal) x0 x1) (val_main_v23 (F := Ideal) x0 x2) concatenates_S1x16x513x1x2047_S1x16x513x1x2047_S2x16x513x1x2047_d0
      (ix5 z b k (0 : Fin 1) f) rfl (ix5 (0 : Fin 1) b k (0 : Fin 1) f) (fun d => ?_)).trans (v22_frameDot x0 x1 b k f)
    match d with
    | ⟨0, _⟩ => show (0 : Nat) = z.val; omega
    | ⟨1, _⟩ => rfl
    | ⟨2, _⟩ => rfl
    | ⟨3, _⟩ => rfl
    | ⟨4, _⟩ => rfl
  · have hj : ¬((ix5 z b k (0 : Fin 1) f) 0).val = 0 := hz
    rw [if_neg hj]
    refine (concatenate_pair_apply_right (t := S2x16x513x1x2047) (s₁ := S1x16x513x1x2047) (s₂ := S1x16x513x1x2047) (0 : Fin 5) (val_main_v22 (F := Ideal) x0 x1) (val_main_v23 (F := Ideal) x0 x2) concatenates_S1x16x513x1x2047_S1x16x513x1x2047_S2x16x513x1x2047_d0
      (ix5 z b k (0 : Fin 1) f) rfl rfl (ix5 (0 : Fin 1) b k (0 : Fin 1) f) (fun d hd => ?_) ?_).trans (v23_frameDot x0 x2 b k f)
    · match d with
      | ⟨0, _⟩ => exact absurd rfl hd
      | ⟨1, _⟩ => rfl
      | ⟨2, _⟩ => rfl
      | ⟨3, _⟩ => rfl
      | ⟨4, _⟩ => rfl
    · show 0 + 1 = z.val
      have := z.isLt
      omega

end Cert.ReferenceIdeal.RefValue

end
-- ==== Proof.KernelPayload.lean ====
/-
  What the kernel body computes from the blocks it loads, read at one entry, on the extended reals.

  The body loads one batch row of the signal as 2048 chunks of 512 samples (`x0 : [1, 2048, 512]`) and four
  half-matrices `[513, 512]` (the first and last 512 columns of the cosine and of the sine table). A change of float
  format is the identity on the extended reals, so the chunk array is just `x0` without its unit axis
  (`chunk_apply`). The rotation by 2047 along the chunk axis puts chunk `c + 1` (mod 2048) at row `c`
  (`nextChunk_apply`). A matrix product into a zero accumulator, contracting the 512-sample axis of both operands,
  is at `(k, c)` the sum over the 512 samples of `lhs (k, n) · rhs (c, n)` (`matmul_rows`). The stored value at
  `(0, 0, k, f)`, `f < 2047`, is therefore

      Σ_{n < 512} a (k, n) · x0 (0, f, n)  +  Σ_{n < 512} b (k, n) · x0 (0, f + 1, n)

  with `a`, `b` the two half-matrices of the channel (`channel_apply`): the first half of the matrix row against
  chunk `f`, the second half against chunk `f + 1` (no wrap-around, since `f + 1 ≤ 2047`).
-/
import proofs.«139394_j43284680409346_2_alg».proof.Proof.Gen.KernelIdeal.Skeleton
import Idealize.ShloMosaic.Lib.Pipeline.Value
import Idealize.ShloMosaic.Lib.ValueIdx
import Idealize.ShloMosaic.Lib.KernelVsHost
import Idealize.ShloMosaic.PureOps.Ideal.Laws

noncomputable section

open scoped BigOperators

namespace Cert.KernelIdeal.Payload

open Cert.KernelIdeal Cert.KernelIdeal.Gen Idealize.ShloMosaic Idealize.ShloMosaic.TcCoe Idealize.ShloMosaic.ValueIdx

/-- The matrix products' dimension numbers (contract axis 1 of both operands), under a short name. -/
abbrev DD : DotDims S513x512 S2048x512 S513x2048 := dot_S513x512_S2048x512_S513x2048_1_1_0_0_n_n

/-- Row `c` of the chunk array is chunk `c` of the loaded block. -/
theorem chunk_apply (x0 : Vec Ideal S1x2048x512 .f32) (c : Fin 2048) (n : Fin 512) :
    k0_pay1 (F := Ideal) x0 (ix2 c n) = x0 (ix3 (0 : Fin 1) c n) := by
  unfold k0_pay1
  show shapeCast S2048x512 x0 shapeCasts_S1x2048x512_S2048x512 (ix2 c n) = _
  refine shapeCast_apply x0 _ (ix2 c n) (ix3 (0 : Fin 1) c n) ?_
  rw [Shape.rowMajor_val_three, Shape.rowMajor_val_two]
  show (0 * 2048 + c.val) * 512 + n.val = c.val * 512 + n.val
  omega

/-- Row `c` of the rotated chunk array is chunk `c + 1`, around the end. -/
theorem nextChunk_apply (x0 : Vec Ideal S1x2048x512 .f32) (c : Fin 2048) (n : Fin 512) :
    k0_pay2 (F := Ideal) x0 (ix2 c n) = x0 (ix3 (0 : Fin 1) (⟨(c.val + 1) % 2048, Nat.mod_lt _ (by decide)⟩ : Fin 2048) n) := by
  unfold k0_pay2
  refine (dynamicRotate_apply (0 : Fin 2) 2047#32 (k0_pay1 (F := Ideal) x0) rotates_S2048x512_d0 (ix2 c n)
    (ix2 (⟨(c.val + 1) % 2048, Nat.mod_lt _ (by decide)⟩ : Fin 2048) n) (fun b => ?_)).trans (chunk_apply x0 _ n)
  match b with
  | ⟨0, _⟩ =>
    show (c.val + 1) % 2048 = if ((0 : Fin 2) = 0) then (c.val + 2048 - (2047#32 : BitVec 32).toNat % 2048) % 2048 else c.val
    rw [if_pos rfl, show (2047#32 : BitVec 32).toNat = 2047 from rfl]
    have := c.isLt
    omega
  | ⟨1, _⟩ =>
    show n.val = if ((1 : Fin 2) = 0) then (n.val + 512 - (2047#32 : BitVec 32).toNat % 512) % 512 else n.val
    rw [if_neg (by decide)]

theorem lhs_row (i : S513x2048.Idx) (q : DD.contr.Idx) : (DD.lhsIdx i q 0).val = (i 0).val := by
  unfold DotDims.lhsIdx
  rw [dif_neg (show ¬(0 : Fin S513x512.rank) ∈ DD.lhsBatch by decide), dif_pos (show (0 : Fin S513x512.rank) ∈ DD.lhsNonContracting by decide)]
  rfl
theorem lhs_col (i : S513x2048.Idx) (q : DD.contr.Idx) : (DD.lhsIdx i q 1).val = (q ⟨0, by decide⟩).val :=
  DD.lhsIdx_val_of_single rfl i q
theorem rhs_row (i : S513x2048.Idx) (q : DD.contr.Idx) : (DD.rhsIdx i q 0).val = (i 1).val := by
  unfold DotDims.rhsIdx
  rw [dif_neg (show ¬(0 : Fin S2048x512.rank) ∈ DD.rhsBatch by decide), dif_pos (show (0 : Fin S2048x512.rank) ∈ DD.rhsNonContracting by decide)]
  rfl
theorem rhs_col (i : S513x2048.Idx) (q : DD.contr.Idx) : (DD.rhsIdx i q 1).val = (q ⟨0, by decide⟩).val :=
  DD.rhsIdx_val_of_single rfl i q

/-- The product of a `[513, 512]` by the transpose of a `[2048, 512]` matrix into a zero accumulator, at `(k, c)`:
    the sum over the shared 512-sample axis. -/
theorem matmul_rows (l : FVec Ideal S513x512 .bf16) (r : FVec Ideal S2048x512 .bf16) (k : Fin 513) (c : Fin 2048) :
    matmul DD none l r (constant (F := Ideal) S513x2048 .f32 0x00000000#32) (ix2 k c) = ∑ n : Fin 512, l (ix2 k n) * r (ix2 c n) := by
  simp only [matmul]
  rw [Ideal.matmul_constant_zero_apply, ← Equiv.sum_comp (contrEquiv1 DD 512 rfl rfl).symm]
  refine Finset.sum_congr rfl fun n _ => ?_
  have hk := contrEquiv1_symm_val DD 512 rfl rfl n
  have el : DD.lhsIdx (ix2 k c) ((contrEquiv1 DD 512 rfl rfl).symm n) = ix2 k n := funext fun a => Fin.ext (by
    match a with
    | ⟨0, _⟩ => exact lhs_row _ _
    | ⟨1, _⟩ => exact (lhs_col _ _).trans hk)
  have er : DD.rhsIdx (ix2 k c) ((contrEquiv1 DD 512 rfl rfl).symm n) = ix2 c n := funext fun a => Fin.ext (by
    match a with
    | ⟨0, _⟩ => exact rhs_row _ _
    | ⟨1, _⟩ => exact (rhs_col _ _).trans hk)
  rw [el, er]

/-- One channel's arithmetic: from the chunk block `x0` and the channel's two half-matrices `a`, `b`, the value at
    `(0, 0, k, f)` is the first half-row against chunk `f` plus the second half-row against chunk `f + 1`. -/
def channel (x0 : Vec Ideal S1x2048x512 .f32) (a b : Vec Ideal S513x512 .bf16) : FVec Ideal S1x1x513x2047 .f32 :=
  shapeCast S1x1x513x2047
    (addf (extractStridedSlice S513x2047 ![0, 0]
        (matmul DD none (shapeCast S513x512 a shapeCasts_S513x512_S513x512 : FVec Ideal S513x512 .bf16) (k0_pay1 (F := Ideal) x0) (constant (F := Ideal) S513x2048 .f32 0x00000000#32))
        slices_S513x2048_o0_0_S513x2047)
      (extractStridedSlice S513x2047 ![0, 0]
        (matmul DD none (shapeCast S513x512 b shapeCasts_S513x512_S513x512 : FVec Ideal S513x512 .bf16) (k0_pay2 (F := Ideal) x0) (constant (F := Ideal) S513x2048 .f32 0x00000000#32))
        slices_S513x2048_o0_0_S513x2047))
    shapeCasts_S513x2047_S1x1x513x2047

theorem pay3_eq (x0 : Vec Ideal S1x2048x512 .f32) (a b : Vec Ideal S513x512 .bf16) : k0_pay3 (F := Ideal) x0 a b = channel x0 a b := rfl
theorem pay4_eq (x0 : Vec Ideal S1x2048x512 .f32) (a b : Vec Ideal S513x512 .bf16) : k0_pay4 (F := Ideal) x0 a b = channel x0 a b := rfl

theorem half_apply (x0 : Vec Ideal S1x2048x512 .f32) (a : Vec Ideal S513x512 .bf16) (r : FVec Ideal S2048x512 .bf16)
    (k : Fin 513) (f : Fin 2047) :
    extractStridedSlice S513x2047 ![0, 0]
        (matmul DD none (shapeCast S513x512 a shapeCasts_S513x512_S513x512 : FVec Ideal S513x512 .bf16) r (constant (F := Ideal) S513x2048 .f32 0x00000000#32))
        slices_S513x2048_o0_0_S513x2047 (ix2 k f)
      = ∑ n : Fin 512, a (ix2 k n) * r (ix2 (⟨f.val, by have := f.isLt; omega⟩ : Fin 2048) n) := by
  refine (extractStridedSlice_apply ![0, 0] _ slices_S513x2048_o0_0_S513x2047 (ix2 k f)
    (ix2 k (⟨f.val, by have := f.isLt; omega⟩ : Fin 2048)) (fun d => ?_)).trans ?_
  · match d with
    | ⟨0, _⟩ => show k.val = 0 + k.val; omega
    | ⟨1, _⟩ => show f.val = 0 + f.val; omega
  refine (matmul_rows _ r k _).trans (Finset.sum_congr rfl fun n _ => ?_)
  rw [shapeCast_self]

theorem channel_apply (x0 : Vec Ideal S1x2048x512 .f32) (a b : Vec Ideal S513x512 .bf16) (k : Fin 513) (f : Fin 2047) :
    channel x0 a b (ix4 (0 : Fin 1) (0 : Fin 1) k f)
      = (∑ n : Fin 512, a (ix2 k n) * x0 (ix3 (0 : Fin 1) (⟨f.val, by have := f.isLt; omega⟩ : Fin 2048) n))
        + ∑ n : Fin 512, b (ix2 k n) * x0 (ix3 (0 : Fin 1) (⟨f.val + 1, by have := f.isLt; omega⟩ : Fin 2048) n) := by
  unfold channel
  refine (shapeCast_apply _ shapeCasts_S513x2047_S1x1x513x2047 (ix4 (0 : Fin 1) (0 : Fin 1) k f) (ix2 k f) ?_).trans ?_
  · rw [Shape.rowMajor_val_two, Shape.rowMajor_val_four]
    show k.val * 2047 + f.val = ((0 * 1 + 0) * 513 + k.val) * 2047 + f.val
    omega
  refine (addf_apply _ _ _).trans (congrArg₂ (· + ·) ?_ ?_)
  · refine (half_apply x0 a _ k f).trans (Finset.sum_congr rfl fun n _ => ?_)
    rw [chunk_apply]
  · refine (half_apply x0 b _ k f).trans (Finset.sum_congr rfl fun n _ => ?_)
    rw [nextChunk_apply]
    refine congrArg (fun c => b (ix2 k n) * x0 (ix3 (0 : Fin 1) c n)) (Fin.ext ?_)
    show (f.val + 1) % 2048 = f.val + 1
    have := f.isLt
    omega

end Cert.KernelIdeal.Payload

end
-- ==== Proof.KernelPoint.lean ====
/-
  What one grid point leaves in the output block, as the transform of Spec.lean.

  The body stores the cosine channel through the rectangle at offset `(0, 0, 0, 0)` and the sine channel through the
  rectangle at offset `(1, 0, 0, 0)` of the `[2, 1, 513, 2047]` block; the two rectangles tile the block, so entry
  `(z, 0, k, f)` of the block is entry `(0, 0, k, f)` of the channel `z` selects (`stored_apply`).

  If the loaded chunk block is batch row `b` of the signal cut into chunks (chunk `q`, sample `n` is signal sample
  `512 · q + n`) and the four loaded half-matrices are the first and last 512 columns of the cosine and of the
  sine table, then by KernelPayload.lean the channel's entry is "first half-row against chunk `f`, plus second
  half-row against chunk `f + 1`", and chunk `f`, sample `n` is tap `n` of frame `f` while chunk `f + 1`, sample `n` is
  tap `512 + n`: the two halves of the frame's inner product (`Cert.Stft.frameDot_halves`). So the block's entry is
  the transform at `(z, b, k, 0, f)` (`point_apply`).
-/
import proofs.«139394_j43284680409346_2_alg».proof.Proof.Gen.KernelIdeal.Frame
import proofs.«139394_j43284680409346_2_alg».proof.Proof.KernelPayload
import proofs.«139394_j43284680409346_2_alg».proof.Proof.Spec

noncomputable section

open scoped BigOperators

namespace Cert.KernelIdeal.Point

open Cert.KernelIdeal Cert.KernelIdeal.Gen Cert.KernelIdeal.Payload Idealize.ShloMosaic Idealize.ShloMosaic.TcCoe
open Idealize.ShloMosaic.ValueIdx Cert.Stft

theorem zeros3 : (![0, 0, 0] : Fin 3 → Nat) = fun _ => 0 := funext fun a => by fin_cases a <;> rfl
theorem zeros2 : (![0, 0] : Fin 2 → Nat) = fun _ => 0 := funext fun a => by fin_cases a <;> rfl

/-- Two channel payloads stored through the block's two halves: entry `(z, 0, k, f)` reads the half `z` names. -/
theorem halves_apply (P Q : FVec Ideal S1x1x513x2047 .f32) (z : Fin 2) (k : Fin 513) (f : Fin 2047) :
    View.canon (Val := Elt Ideal) [(⟨r0_3, P⟩ : View.Piece (Elt Ideal) S2x1x513x2047 .f32), ⟨r0_2, Q⟩] (ix4 z (0 : Fin 1) k f)
      = if z.val = 0 then Q (ix4 (0 : Fin 1) (0 : Fin 1) k f) else P (ix4 (0 : Fin 1) (0 : Fin 1) k f) := by
  by_cases h : z.val = 0
  · rw [if_pos h, View.canon_cons_of_not_mem _ _ (y := ix4 z (0 : Fin 1) k f) (by
      intro hm
      rw [Rect.mem_set_unit] at hm
      have h1 : 1 ≤ z.val := (hm 0).1
      omega)]
    have e : ix4 z (0 : Fin 1) k f = r0_2.emb (ix4 (0 : Fin 1) (0 : Fin 1) k f) := funext fun a => Fin.ext (by
      match a with
      | ⟨0, _⟩ => show z.val = 0 + 1 * 0; omega
      | ⟨1, _⟩ => show 0 = 0 + 1 * 0; omega
      | ⟨2, _⟩ => show k.val = 0 + 1 * k.val; omega
      | ⟨3, _⟩ => show f.val = 0 + 1 * f.val; omega)
    rw [e, View.canon_cons_emb]
  · rw [if_neg h]
    have e : ix4 z (0 : Fin 1) k f = r0_3.emb (ix4 (0 : Fin 1) (0 : Fin 1) k f) := funext fun a => Fin.ext (by
      match a with
      | ⟨0, _⟩ => show z.val = 1 + 1 * 0; have := z.isLt; omega
      | ⟨1, _⟩ => show 0 = 0 + 1 * 0; omega
      | ⟨2, _⟩ => show k.val = 0 + 1 * k.val; omega
      | ⟨3, _⟩ => show f.val = 0 + 1 * f.val; omega)
    rw [e, View.canon_cons_emb]

/-- The block after the body, at `(z, 0, k, f)`: the cosine channel's arithmetic for `z = 0`, the sine channel's for
    `z = 1`, each of the whole loaded blocks. -/
theorem stored_apply (X0 : Vec Ideal S1x2048x512 .f32) (X1 X2 X3 X4 : Vec Ideal S513x512 .bf16) (z : Fin 2) (k : Fin 513) (f : Fin 2047) :
    out0_5 (F := Ideal) X0 X1 X2 X3 X4 (ix4 z (0 : Fin 1) k f)
      = if z.val = 0 then channel X0 X1 X2 (ix4 (0 : Fin 1) (0 : Fin 1) k f) else channel X0 X3 X4 (ix4 (0 : Fin 1) (0 : Fin 1) k f) := by
  unfold out0_5
  simp only [View.ld_unit_zero (S := S1x2048x512) zeros3, View.ld_unit_zero (S := S513x512) zeros2]
  rw [pay3_eq, pay4_eq]
  exact halves_apply _ _ z k f

/-- One channel of the block is one channel of the transform, given what the loaded blocks hold. -/
theorem channel_frameDot (s : SSig.Idx → EReal) (w : SDft.Idx → EReal) (b : Fin 16)
    (X0 : Vec Ideal S1x2048x512 .f32) (A B : Vec Ideal S513x512 .bf16)
    (hX0 : ∀ (q : Fin 2048) (n : Fin 512), X0 (ix3 (0 : Fin 1) q n)
      = s (ix4 b (0 : Fin 1) (0 : Fin 1) (⟨512 * q.val + n.val, by have := q.isLt; have := n.isLt; omega⟩ : Fin 1048576)))
    (hA : ∀ (k : Fin 513) (n : Fin 512), A (ix2 k n) = w (ix2 k (⟨n.val, by have := n.isLt; omega⟩ : Fin 1024)))
    (hB : ∀ (k : Fin 513) (n : Fin 512), B (ix2 k n) = w (ix2 k (⟨512 + n.val, by have := n.isLt; omega⟩ : Fin 1024)))
    (k : Fin 513) (f : Fin 2047) :
    channel X0 A B (ix4 (0 : Fin 1) (0 : Fin 1) k f) = frameDot w s b k f := by
  rw [channel_apply, frameDot_halves]
  refine congrArg₂ (· + ·) (Finset.sum_congr rfl fun n _ => ?_) (Finset.sum_congr rfl fun n _ => ?_)
  · rw [hA, hX0]
    refine congrArg (fun p => w (ix2 k _) * s (ix4 b (0 : Fin 1) (0 : Fin 1) p)) (Fin.ext ?_)
    show 512 * f.val + n.val = 512 * f.val + n.val
    rfl
  · rw [hB, hX0]
    refine congrArg (fun p => w (ix2 k _) * s (ix4 b (0 : Fin 1) (0 : Fin 1) p)) (Fin.ext ?_)
    show 512 * (f.val + 1) + n.val = 512 * f.val + (512 + n.val)
    omega

/-- THE BLOCK A POINT LEAVES, at any entry `y`: the transform at `(y 0, b, y 2, 0, y 3)`, `b` the batch row whose
    chunks the point loaded. -/
theorem point_apply (s : SSig.Idx → EReal) (re im : SDft.Idx → EReal) (b : Fin 16)
    (X0 : Vec Ideal S1x2048x512 .f32) (X1 X2 X3 X4 : Vec Ideal S513x512 .bf16)
    (hX0 : ∀ (q : Fin 2048) (n : Fin 512), X0 (ix3 (0 : Fin 1) q n)
      = s (ix4 b (0 : Fin 1) (0 : Fin 1) (⟨512 * q.val + n.val, by have := q.isLt; have := n.isLt; omega⟩ : Fin 1048576)))
    (hX1 : ∀ (k : Fin 513) (n : Fin 512), X1 (ix2 k n) = re (ix2 k (⟨n.val, by have := n.isLt; omega⟩ : Fin 1024)))
    (hX2 : ∀ (k : Fin 513) (n : Fin 512), X2 (ix2 k n) = re (ix2 k (⟨512 + n.val, by have := n.isLt; omega⟩ : Fin 1024)))
    (hX3 : ∀ (k : Fin 513) (n : Fin 512), X3 (ix2 k n) = im (ix2 k (⟨n.val, by have := n.isLt; omega⟩ : Fin 1024)))
    (hX4 : ∀ (k : Fin 513) (n : Fin 512), X4 (ix2 k n) = im (ix2 k (⟨512 + n.val, by have := n.isLt; omega⟩ : Fin 1024)))
    (y : S2x1x513x2047.Idx) :
    out0_5 (F := Ideal) X0 X1 X2 X3 X4 y = stft s re im (ix5 (y 0) b (y 2) (0 : Fin 1) (y 3)) := by
  obtain ⟨z, u, k, f, rfl⟩ : ∃ (z : Fin 2) (u : Fin 1) (k : Fin 513) (f : Fin 2047), y = ix4 z u k f := ⟨y 0, y 1, y 2, y 3, eq_ix4 y⟩
  obtain rfl : u = 0 := Subsingleton.elim _ _
  rw [stored_apply]
  show _ = if z.val = 0 then frameDot re s b k f else frameDot im s b k f
  by_cases h : z.val = 0
  · rw [if_pos h, if_pos h]
    exact channel_frameDot s re b X0 X1 X2 hX0 hX1 hX2 k f
  · rw [if_neg h, if_neg h]
    exact channel_frameDot s im b X0 X3 X4 hX0 hX3 hX4 k f

end Cert.KernelIdeal.Point

end
-- ==== Proof.KernelArray.lean ====
/-
  The kernel's result array after the run is the transform of Spec.lean.

  Before the region the launch reshapes the signal `[16, 1, 1, 1048576]` to chunks `[16, 2048, 512]` (sample
  `512 · q + n` of batch row `b` is chunk `q`, sample `n`) and cuts each table into its first and last 512 columns.
  Grid point `t` (of 16) loads batch row `t`'s chunks and the four half-matrices, and writes back the block
  `[2, 1, 513, 2047]` at block index `(0, t, 0, 0)` of the `[2, 16, 513, 2047]` result. By KernelPoint.lean that block is the
  transform restricted to batch row `t`; the 16 blocks tile the array (the point covering index `i` is `i 1`), so the
  array after the region is the transform without its unit axis, and the reshape after the region puts the unit
  axis back.
-/
import proofs.«139394_j43284680409346_2_alg».proof.Proof.Gen.KernelIdeal.Frame
import proofs.«139394_j43284680409346_2_alg».proof.Proof.KernelPoint
import Idealize.ShloMosaic.Lib.Pipeline.Value
import Idealize.ShloMosaic.Lib.Tactic
import Idealize.ShloMosaic.Lib.StableHlo.Run

set_option maxRecDepth 16384

noncomputable section

open scoped BigOperators

namespace Cert.KernelIdeal.Transform

open Cert.KernelIdeal Cert.KernelIdeal.Gen Cert.KernelIdeal.Point Idealize.ShloMosaic Idealize.ShloMosaic.TcCoe Idealize.SL.Sem
open Idealize.ShloMosaic.Pipeline (Dat)
open Idealize.ShloMosaic.StableHlo
open Idealize.ShloMosaic.ValueIdx Cert.Stft

variable (m : (ℓ : Loc nD τ sig) → Buf (Elt Ideal) ℓ) (ρ : Dev nD → PrngReg)

/-- The printed index maps over the 16 grid points: the chunk window moves along the batch axis, the four
    half-matrix windows stay put, the output window moves along its second axis. -/
theorem idx_facts : ∀ t : Fin cfg0.N,
    win0_0.index t (0 : Fin 3) = t.val ∧ win0_0.index t (1 : Fin 3) = 0 ∧ win0_0.index t (2 : Fin 3) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 4) = 0 ∧ win0_5.index t (1 : Fin 4) = t.val ∧ win0_5.index t (2 : Fin 4) = 0 ∧ win0_5.index t (3 : Fin 4) = 0 :=
  (by decide +kernel : ∀ t : Fin grid0.N, _)

/-- The batch row a grid point works on. -/
def batchOf (t : Fin cfg0.N) : Fin 16 := Fin.cast N_0 t

theorem batchOf_val (t : Fin cfg0.N) : (batchOf t).val = t.val := rfl

/-! ## The arrays the launch prepares -/

/-- The chunk array: chunk `q`, sample `n` of batch row `b` is signal sample `512 · q + n` (a reshape keeps the
    row-major position). -/
theorem chunks_apply (c : Dev nD) (b : Fin 16) (q : Fin 2048) (n : Fin 512) :
    (V m c main_v0 : S16x2048x512.Idx → EReal) (ix3 b q n)
      = (m ((c : Thread nD τ).loc main_arg0) : S16x1x1x1048576.Idx → EReal)
          (ix4 b (0 : Fin 1) (0 : Fin 1) (⟨512 * q.val + n.val, by have := q.isLt; have := n.isLt; omega⟩ : Fin 1048576)) := by
  have e : V m c main_v0 = (shapeCast S16x2048x512 (m ((c : Thread nD τ).loc main_arg0) : S16x1x1x1048576.Idx → EReal)
      shapeCasts_S16x1x1x1048576_S16x2048x512 : S16x2048x512.Idx → EReal) := by
    show StableHlo.after hostOps0 (fun b => m (c, b)) (Proc.devRef .tc main_v0) = _
    after_results <;> rfl
  rw [e]
  refine shapeCast_apply _ _ (ix3 b q n)
    (ix4 b (0 : Fin 1) (0 : Fin 1) (⟨512 * q.val + n.val, by have := q.isLt; have := n.isLt; omega⟩ : Fin 1048576)) ?_
  rw [Shape.rowMajor_val_four, Shape.rowMajor_val_three]
  show ((b.val * 1 + 0) * 1 + 0) * 1048576 + (512 * q.val + n.val) = (b.val * 2048 + q.val) * 512 + n.val
  omega

/-- The half-matrix the launch prepares in `main_v2`: columns `0 … 511` of the cosine table (the format change is the identity). -/
theorem main_v2_apply (c : Dev nD) (k : Fin 513) (n : Fin 512) :
    (V m c main_v2 : S513x512.Idx → EReal) (ix2 k n)
      = (m ((c : Thread nD τ).loc main_arg1) : S513x1024.Idx → EReal) (ix2 k (⟨n.val, by have := n.isLt; omega⟩ : Fin 1024)) := by
  have e : V m c main_v2 = (truncf (F := Ideal) (φ := .f32) .bf16 (extractStridedSlice S513x512 ![0, 0]
      (m ((c : Thread nD τ).loc main_arg1) : S513x1024.Idx → EReal) slices_S513x1024_S513x512_0_0) bitsLt_bf16_f32 : FVec Ideal S513x512 .bf16) := by
    show StableHlo.after hostOps0 (fun b => m (c, b)) (Proc.devRef .tc main_v2) = _
    after_results <;> rfl
  rw [e]
  show extractStridedSlice S513x512 ![0, 0] (m ((c : Thread nD τ).loc main_arg1) : S513x1024.Idx → EReal) slices_S513x1024_S513x512_0_0 (ix2 k n) = _
  refine extractStridedSlice_apply ![0, 0] _ _ (ix2 k n) (ix2 k (⟨n.val, by have := n.isLt; omega⟩ : Fin 1024)) (fun a => ?_)
  match a with
  | ⟨0, _⟩ => show k.val = 0 + k.val; omega
  | ⟨1, _⟩ => show n.val = 0 + n.val; omega

/-- The half-matrix the launch prepares in `main_v4`: columns `512 … 1023` of the cosine table (the format change is the identity). -/
theorem main_v4_apply (c : Dev nD) (k : Fin 513) (n : Fin 512) :
    (V m c main_v4 : S513x512.Idx → EReal) (ix2 k n)
      = (m ((c : Thread nD τ).loc main_arg1) : S513x1024.Idx → EReal) (ix2 k (⟨512 + n.val, by have := n.isLt; omega⟩ : Fin 1024)) := by
  have e : V m c main_v4 = (truncf (F := Ideal) (φ := .f32) .bf16 (extractStridedSlice S513x512 ![0, 512]
      (m ((c : Thread nD τ).loc main_arg1) : S513x1024.Idx → EReal) slices_S513x1024_S513x512_0_512) bitsLt_bf16_f32 : FVec Ideal S513x512 .bf16) := by
    show StableHlo.after hostOps0 (fun b => m (c, b)) (Proc.devRef .tc main_v4) = _
    after_results <;> rfl
  rw [e]
  show extractStridedSlice S513x512 ![0, 512] (m ((c : Thread nD τ).loc main_arg1) : S513x1024.Idx → EReal) slices_S513x1024_S513x512_0_512 (ix2 k n) = _
  refine extractStridedSlice_apply ![0, 512] _ _ (ix2 k n) (ix2 k (⟨512 + n.val, by have := n.isLt; omega⟩ : Fin 1024)) (fun a => ?_)
  match a with
  | ⟨0, _⟩ => show k.val = 0 + k.val; omega
  | ⟨1, _⟩ => show 512 + n.val = 512 + n.val; omega

/-- The half-matrix the launch prepares in `main_v6`: columns `0 … 511` of the sine table (the format change is the identity). -/
theorem main_v6_apply (c : Dev nD) (k : Fin 513) (n : Fin 512) :
    (V m c main_v6 : S513x512.Idx → EReal) (ix2 k n)
      = (m ((c : Thread nD τ).loc main_arg2) : S513x1024.Idx → EReal) (ix2 k (⟨n.val, by have := n.isLt; omega⟩ : Fin 1024)) := by
  have e : V m c main_v6 = (truncf (F := Ideal) (φ := .f32) .bf16 (extractStridedSlice S513x512 ![0, 0]
      (m ((c : Thread nD τ).loc main_arg2) : S513x1024.Idx → EReal) slices_S513x1024_S513x512_0_0) bitsLt_bf16_f32 : FVec Ideal S513x512 .bf16) := by
    show StableHlo.after hostOps0 (fun b => m (c, b)) (Proc.devRef .tc main_v6) = _
    after_results <;> rfl
  rw [e]
  show extractStridedSlice S513x512 ![0, 0] (m ((c : Thread nD τ).loc main_arg2) : S513x1024.Idx → EReal) slices_S513x1024_S513x512_0_0 (ix2 k n) = _
  refine extractStridedSlice_apply ![0, 0] _ _ (ix2 k n) (ix2 k (⟨n.val, by have := n.isLt; omega⟩ : Fin 1024)) (fun a => ?_)
  match a with
  | ⟨0, _⟩ => show k.val = 0 + k.val; omega
  | ⟨1, _⟩ => show n.val = 0 + n.val; omega

/-- The half-matrix the launch prepares in `main_v8`: columns `512 … 1023` of the sine table (the format change is the identity). -/
theorem main_v8_apply (c : Dev nD) (k : Fin 513) (n : Fin 512) :
    (V m c main_v8 : S513x512.Idx → EReal) (ix2 k n)
      = (m ((c : Thread nD τ).loc main_arg2) : S513x1024.Idx → EReal) (ix2 k (⟨512 + n.val, by have := n.isLt; omega⟩ : Fin 1024)) := by
  have e : V m c main_v8 = (truncf (F := Ideal) (φ := .f32) .bf16 (extractStridedSlice S513x512 ![0, 512]
      (m ((c : Thread nD τ).loc main_arg2) : S513x1024.Idx → EReal) slices_S513x1024_S513x512_0_512) bitsLt_bf16_f32 : FVec Ideal S513x512 .bf16) := by
    show StableHlo.after hostOps0 (fun b => m (c, b)) (Proc.devRef .tc main_v8) = _
    after_results <;> rfl
  rw [e]
  show extractStridedSlice S513x512 ![0, 512] (m ((c : Thread nD τ).loc main_arg2) : S513x1024.Idx → EReal) slices_S513x1024_S513x512_0_512 (ix2 k n) = _
  refine extractStridedSlice_apply ![0, 512] _ _ (ix2 k n) (ix2 k (⟨512 + n.val, by have := n.isLt; omega⟩ : Fin 1024)) (fun a => ?_)
  match a with
  | ⟨0, _⟩ => show k.val = 0 + k.val; omega
  | ⟨1, _⟩ => show 512 + n.val = 512 + n.val; omega

/-! ## The blocks a point loads -/

/-- The chunk window's block at point `t` is batch row `t` of the chunk array. -/
theorem block0_apply (c : Dev nD) (t : Fin cfg0.N) (q : Fin 2048) (n : Fin 512) :
    (iblk m c 0 t : Vec Ideal S1x2048x512 .f32) (ix3 (0 : Fin 1) q n)
      = (m ((c : Thread nD τ).loc main_arg0) : S16x1x1x1048576.Idx → EReal)
          (ix4 (batchOf t) (0 : Fin 1) (0 : Fin 1) (⟨512 * q.val + n.val, by have := q.isLt; have := n.isLt; omega⟩ : Fin 1048576)) := by
  obtain ⟨e0, e1, e2, -⟩ := idx_facts t
  unfold iblk
  rw [View.read_apply]
  show V m c main_v0 _ = _
  rw [← chunks_apply m c (batchOf t) q n]
  congr 1
  funext a
  apply Fin.ext
  match a with
  | ⟨0, _⟩ => show win0_0.index t (0 : Fin 3) * 1 + 1 * 0 = t.val; omega
  | ⟨1, _⟩ => show win0_0.index t (1 : Fin 3) * 2048 + 1 * q.val = q.val; omega
  | ⟨2, _⟩ => show win0_0.index t (2 : Fin 3) * 512 + 1 * n.val = n.val; omega

/-- Window 1's block at any point is the whole half-matrix `main_v2` (its index map is constant). -/
theorem block1_apply (c : Dev nD) (t : Fin cfg0.N) (k : Fin 513) (n : Fin 512) :
    (iblk m c 1 t : Vec Ideal S513x512 .bf16) (ix2 k n)
      = (m ((c : Thread nD τ).loc main_arg1) : S513x1024.Idx → EReal) (ix2 k (⟨n.val, by have := n.isLt; omega⟩ : Fin 1024)) := by
  obtain ⟨-, -, -, e10, e11, e20, e21, e30, e31, e40, e41, -⟩ := idx_facts t
  unfold iblk
  rw [View.read_apply]
  show V m c main_v2 _ = _
  rw [← main_v2_apply m c k n]
  congr 1
  funext a
  apply Fin.ext
  match a with
  | ⟨0, _⟩ => show win0_1.index t (0 : Fin 2) * 513 + 1 * k.val = k.val; omega
  | ⟨1, _⟩ => show win0_1.index t (1 : Fin 2) * 512 + 1 * n.val = n.val; omega

/-- Window 2's block at any point is the whole half-matrix `main_v4` (its index map is constant). -/
theorem block2_apply (c : Dev nD) (t : Fin cfg0.N) (k : Fin 513) (n : Fin 512) :
    (iblk m c 2 t : Vec Ideal S513x512 .bf16) (ix2 k n)
      = (m ((c : Thread nD τ).loc main_arg1) : S513x1024.Idx → EReal) (ix2 k (⟨512 + n.val, by have := n.isLt; omega⟩ : Fin 1024)) := by
  obtain ⟨-, -, -, e10, e11, e20, e21, e30, e31, e40, e41, -⟩ := idx_facts t
  unfold iblk
  rw [View.read_apply]
  show V m c main_v4 _ = _
  rw [← main_v4_apply m c k n]
  congr 1
  funext a
  apply Fin.ext
  match a with
  | ⟨0, _⟩ => show win0_2.index t (0 : Fin 2) * 513 + 1 * k.val = k.val; omega
  | ⟨1, _⟩ => show win0_2.index t (1 : Fin 2) * 512 + 1 * n.val = n.val; omega

/-- Window 3's block at any point is the whole half-matrix `main_v6` (its index map is constant). -/
theorem block3_apply (c : Dev nD) (t : Fin cfg0.N) (k : Fin 513) (n : Fin 512) :
    (iblk m c 3 t : Vec Ideal S513x512 .bf16) (ix2 k n)
      = (m ((c : Thread nD τ).loc main_arg2) : S513x1024.Idx → EReal) (ix2 k (⟨n.val, by have := n.isLt; omega⟩ : Fin 1024)) := by
  obtain ⟨-, -, -, e10, e11, e20, e21, e30, e31, e40, e41, -⟩ := idx_facts t
  unfold iblk
  rw [View.read_apply]
  show V m c main_v6 _ = _
  rw [← main_v6_apply m c k n]
  congr 1
  funext a
  apply Fin.ext
  match a with
  | ⟨0, _⟩ => show win0_3.index t (0 : Fin 2) * 513 + 1 * k.val = k.val; omega
  | ⟨1, _⟩ => show win0_3.index t (1 : Fin 2) * 512 + 1 * n.val = n.val; omega

/-- Window 4's block at any point is the whole half-matrix `main_v8` (its index map is constant). -/
theorem block4_apply (c : Dev nD) (t : Fin cfg0.N) (k : Fin 513) (n : Fin 512) :
    (iblk m c 4 t : Vec Ideal S513x512 .bf16) (ix2 k n)
      = (m ((c : Thread nD τ).loc main_arg2) : S513x1024.Idx → EReal) (ix2 k (⟨512 + n.val, by have := n.isLt; omega⟩ : Fin 1024)) := by
  obtain ⟨-, -, -, e10, e11, e20, e21, e30, e31, e40, e41, -⟩ := idx_facts t
  unfold iblk
  rw [View.read_apply]
  show V m c main_v8 _ = _
  rw [← main_v8_apply m c k n]
  congr 1
  funext a
  apply Fin.ext
  match a with
  | ⟨0, _⟩ => show win0_4.index t (0 : Fin 2) * 513 + 1 * k.val = k.val; omega
  | ⟨1, _⟩ => show win0_4.index t (1 : Fin 2) * 512 + 1 * n.val = n.val; omega

/-! ## The result array after the region -/

/-- The transform without the result's unit axis: what the region's output array ends holding. -/
def regionArray (c : Dev nD) : S2x16x513x2047.Idx → EReal := fun i =>
  stft (m ((c : Thread nD τ).loc main_arg0)) (m ((c : Thread nD τ).loc main_arg1)) (m ((c : Thread nD τ).loc main_arg2))
    (ix5 (i 0) (i 1) (i 2) (0 : Fin 1) (i 3))

/-- WHAT POINT `t` WRITES BACK is block `t` of `regionArray`. -/
theorem flushed_eq (c : Dev nD) (t : Fin cfg0.N) :
    (dats m 0 c).flushed 5 t = ((cfg0.win 5).blk t).view.read (Elt Ideal) (regionArray m c) := by
  show (cfg0.win 5).cut (grid0.coords t) ((dats m 0 c).after 5 t) = _
  rw [after0_5]
  obtain ⟨-, -, -, -, -, -, -, -, -, -, -, e50, e51, e52, e53⟩ := idx_facts t
  funext y
  show out0_5 (F := Ideal) (iblk m c 0 t) (iblk m c 1 t) (iblk m c 2 t) (iblk m c 3 t) (iblk m c 4 t) y
    = regionArray m c (((cfg0.win 5).blk t).view.emb y)
  refine (point_apply (m ((c : Thread nD τ).loc main_arg0)) (m ((c : Thread nD τ).loc main_arg1)) (m ((c : Thread nD τ).loc main_arg2))
    (batchOf t) (iblk m c 0 t) (iblk m c 1 t) (iblk m c 2 t) (iblk m c 3 t) (iblk m c 4 t)
    (block0_apply m c t) (block1_apply m c t) (block2_apply m c t) (block3_apply m c t) (block4_apply m c t) y).trans ?_
  unfold regionArray
  refine congrArg (stft (m ((c : Thread nD τ).loc main_arg0)) (m ((c : Thread nD τ).loc main_arg1)) (m ((c : Thread nD τ).loc main_arg2)))
    (funext fun a => Fin.ext ?_)
  have hy1 : (y 1).val < 1 := (y 1).isLt
  match a with
  | ⟨0, _⟩ => show (y 0).val = win0_5.index t (0 : Fin 4) * 2 + 1 * (y 0).val; omega
  | ⟨1, _⟩ => show t.val = win0_5.index t (1 : Fin 4) * 1 + 1 * (y 1).val; omega
  | ⟨2, _⟩ => show (y 2).val = win0_5.index t (2 : Fin 4) * 513 + 1 * (y 2).val; omega
  | ⟨3, _⟩ => rfl
  | ⟨4, _⟩ => show (y 3).val = win0_5.index t (3 : Fin 4) * 2047 + 1 * (y 3).val; omega

/-- An index of the result array is in point `t`'s block iff each coordinate is in the block's range on its axis. -/
theorem mem_blk (t : Fin cfg0.N) (i : S2x16x513x2047.Idx) :
    i ∈ ((cfg0.win 5).blk t).view.set ↔ ∀ a : Fin 4, win0_5.index t a * S2x1x513x2047.size a ≤ (i a).val
      ∧ (i a).val < win0_5.index t a * S2x1x513x2047.size a + S2x1x513x2047.size a := by
  show i ∈ ((View.whole main_v9).slice (win0_5.rect t)).set ↔ _
  rw [View.set_slice_whole, Rect.mem_set_unit]
  exact Iff.rfl

/-- The 16 blocks tile the array: index `i` is in the block of point `i 1`. -/
theorem cover (i : S2x16x513x2047.Idx) :
    ∃ t : Fin cfg0.N, (cfg0.win 5).flush t = true ∧ i ∈ ((cfg0.win 5).blk t).view.set := by
  have hi0 : (i 0).val < 2 := (i 0).isLt
  have hi1 : (i 1).val < 16 := (i 1).isLt
  have hi2 : (i 2).val < 513 := (i 2).isLt
  have hi3 : (i 3).val < 2047 := (i 3).isLt
  refine ⟨Fin.cast N_0.symm (⟨(i 1).val, hi1⟩ : Fin 16), flush0_5 _, ?_⟩
  obtain ⟨-, -, -, -, -, -, -, -, -, -, -, e50, e51, e52, e53⟩ := idx_facts (Fin.cast N_0.symm (⟨(i 1).val, hi1⟩ : Fin 16))
  have e51' : win0_5.index (Fin.cast N_0.symm (⟨(i 1).val, hi1⟩ : Fin 16)) (1 : Fin 4) = (i 1).val := e51
  rw [mem_blk]
  intro a
  match a with
  | ⟨0, _⟩ =>
    show win0_5.index (Fin.cast N_0.symm (⟨(i 1).val, hi1⟩ : Fin 16)) (0 : Fin 4) * 2 ≤ (i 0).val
      ∧ (i 0).val < win0_5.index (Fin.cast N_0.symm (⟨(i 1).val, hi1⟩ : Fin 16)) (0 : Fin 4) * 2 + 2
    omega
  | ⟨1, _⟩ =>
    show win0_5.index (Fin.cast N_0.symm (⟨(i 1).val, hi1⟩ : Fin 16)) (1 : Fin 4) * 1 ≤ (i 1).val
      ∧ (i 1).val < win0_5.index (Fin.cast N_0.symm (⟨(i 1).val, hi1⟩ : Fin 16)) (1 : Fin 4) * 1 + 1
    omega
  | ⟨2, _⟩ =>
    show win0_5.index (Fin.cast N_0.symm (⟨(i 1).val, hi1⟩ : Fin 16)) (2 : Fin 4) * 513 ≤ (i 2).val
      ∧ (i 2).val < win0_5.index (Fin.cast N_0.symm (⟨(i 1).val, hi1⟩ : Fin 16)) (2 : Fin 4) * 513 + 513
    omega
  | ⟨3, _⟩ =>
    show win0_5.index (Fin.cast N_0.symm (⟨(i 1).val, hi1⟩ : Fin 16)) (3 : Fin 4) * 2047 ≤ (i 3).val
      ∧ (i 3).val < win0_5.index (Fin.cast N_0.symm (⟨(i 1).val, hi1⟩ : Fin 16)) (3 : Fin 4) * 2047 + 2047
    omega

/-- THE REGION'S OUTPUT ARRAY after the run is `regionArray`. -/
theorem final (c : Dev nD) : (dats m 0 c).arrAt 5 cfg0.N = regionArray m c :=
  (dats m 0 c).arrAt_eq_of_cover 5 (regionArray m c) (fun t _ => flushed_eq m c t) cover

/-! ## The reshape after the region, and the run -/

/-- @main's result: the region's array with the unit axis put back is the transform. -/
theorem result_eq (c : Dev nD) :
    Pipeline.afterTail₀ cfgs (dats m) 0 (V0 m) [hostOps1] c main_v10
      = stft (m ((c : Thread nD τ).loc main_arg0)) (m ((c : Thread nD τ).loc main_arg1)) (m ((c : Thread nD τ).loc main_arg2)) := by
  have hA : Pipeline.withArrays (cfgs 0).spec c (V0 m c) (fun w => (dats m 0 c).arrAt w (cfgs 0).N) (Proc.devRef .tc main_v9)
      = regionArray m c :=
    (Pipeline.withArrays_arr spec0 launch0.win.arr_inj c _ _ 5).trans (final m c)
  unfold Pipeline.afterTail₀
  show StableHlo.after hostOps1 _ (Proc.devRef .tc main_v10) = _
  after_results
  funext j
  show shapeCast S2x16x513x1x2047
      (Pipeline.withArrays (cfgs 0).spec c (V0 m c) (fun w => (dats m 0 c).arrAt w (cfgs 0).N) (Proc.devRef .tc main_v9))
      shapeCasts_S2x16x513x2047_S2x16x513x1x2047 j = _
  obtain ⟨z, b, k, u, f, rfl⟩ : ∃ (z : Fin 2) (b : Fin 16) (k : Fin 513) (u : Fin 1) (f : Fin 2047), j = ix5 z b k u f :=
    ⟨j 0, j 1, j 2, j 3, j 4, eq_ix5 j⟩
  obtain rfl : u = 0 := Subsingleton.elim _ _
  refine (shapeCast_apply _ shapeCasts_S2x16x513x2047_S2x16x513x1x2047 (ix5 z b k (0 : Fin 1) f) (ix4 z b k f) ?_).trans
    (congrFun hA (ix4 z b k f))
  rw [Shape.rowMajor_val_four, Shape.rowMajor_val_five]
  show ((z.val * 16 + b.val) * 513 + k.val) * 2047 + f.val = (((z.val * 16 + b.val) * 513 + k.val) * 1 + 0) * 2047 + f.val
  omega

/-- THE RUN, READ: every weakly fair execution of the idealized kernel's @main terminates with the result array at the
    transform of the arguments, and the arguments unchanged. -/
theorem run : θ_run defs (onTc (τ := τ) (main (F := Ideal))) ⟨m, fun _ => 0, ρ⟩ fun r => ∀ c : Dev nD,
      r.2.mem ((c.tc : Thread nD τ).loc main_v10)
        = stft (m ((c.tc : Thread nD τ).loc main_arg0)) (m ((c.tc : Thread nD τ).loc main_arg1)) (m ((c.tc : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun _ h c =>
    ⟨((h c).2 main_v10 (Pipeline.mem_restRefs_of main_v10 (by decide) (by decide))).trans (result_eq m c),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c)⟩)
    (run_main m ρ)

end Cert.KernelIdeal.Transform

end
-- ==== Proof.lean ====
/-
  A short-time Fourier transform by two half-frame matrix products, against the framed matrix product.

  Both programs take a signal `s : [16, 1, 1, 1048576]` and two analysis matrices `re, im : [513, 1024]` (a windowed
  cosine table and a windowed sine table) and return `[2, 16, 513, 1, 2047]`: for channel `z` (cosine, sine), batch row
  `b`, frequency `k` and frame `f`, the inner product of row `k` of the channel's table with the 1024 samples
  `s (b, 0, 0, 512 · f + n)`, `n < 1024` (Proof/Spec.lean, `Cert.Stft.stft`).

  The reference gathers the 2047 overlapping frames explicitly and contracts the 1024 taps in one product
  (Proof/RefGather.lean, Proof/RefTransform.lean). The kernel never builds the frames: since the hop is half the frame
  length, frame `f` is chunk `f` followed by chunk `f + 1` of the signal cut into 2048 chunks of 512 samples, so it
  multiplies the first 512 columns of a table with the chunks, the last 512 columns with the chunks rotated by one,
  and adds (Proof/KernelPayload.lean, Proof/KernelPoint.lean, Proof/KernelArray.lean). On the extended reals every
  format change is the identity and both products are exact sums, so the two results differ only by splitting a
  sum of 1024 terms into its first and last 512 — a regrouping in a commutative monoid, valid at infinities too;
  the precondition is never opened. The ideal pass rewrote nothing, so the kernel's idealization is its own text.
-/
import proofs.«139394_j43284680409346_2_alg».proof.Defs
import proofs.«139394_j43284680409346_2_alg».proof.Proof.Gen.Kernel
import proofs.«139394_j43284680409346_2_alg».proof.Proof.Gen.Kernel.Skeleton
import proofs.«139394_j43284680409346_2_alg».proof.Proof.Gen.Kernel.Launch
import proofs.«139394_j43284680409346_2_alg».proof.Proof.Gen.Kernel.Points
import proofs.«139394_j43284680409346_2_alg».proof.Proof.Gen.Kernel.Frame
import proofs.«139394_j43284680409346_2_alg».proof.Proof.Gen.KernelIdeal
import proofs.«139394_j43284680409346_2_alg».proof.Proof.Gen.KernelIdeal.Skeleton
import proofs.«139394_j43284680409346_2_alg».proof.Proof.Gen.KernelIdeal.Launch
import proofs.«139394_j43284680409346_2_alg».proof.Proof.Gen.KernelIdeal.Points
import proofs.«139394_j43284680409346_2_alg».proof.Proof.Gen.KernelIdeal.Frame
import proofs.«139394_j43284680409346_2_alg».proof.Proof.Gen.ReferenceIdeal
import proofs.«139394_j43284680409346_2_alg».proof.Proof.Gen.Pre_finite_inputs
import proofs.«139394_j43284680409346_2_alg».proof.Proof.Gen.ReferenceIdeal.Run
import proofs.«139394_j43284680409346_2_alg».proof.Proof.Gen.ReferenceIdeal.Read
import proofs.«139394_j43284680409346_2_alg».proof.Proof.RefTransform
import proofs.«139394_j43284680409346_2_alg».proof.Proof.KernelArray
import Idealize.ShloMosaic.Adequacy
import Idealize.ShloMosaic.Init

noncomputable section

namespace Cert.Proof

open Idealize.ShloMosaic Idealize.SL.Sem

/-- The word-level kernel runs and keeps its arguments: the generated frame. -/
theorem frame_kernel : Cert.frame_Kernel := fun m ρ _ => Cert.Kernel.Gen.frame m ρ

/-- So does the kernel read on the extended reals. -/
theorem frame_kernelIdeal : Cert.frame_KernelIdeal := fun m ρ _ => Cert.KernelIdeal.Gen.frame m ρ

/-- The reference has no kernel: its frame is its generated run with the result forgotten. -/
theorem frame_reference : Cert.frame_ReferenceIdeal := fun m ρ _ =>
  (θ_run Cert.ReferenceIdeal.defs _ _).mono (fun _ h c => (h c).2) (Cert.ReferenceIdeal.Value.run (F := Ideal) m ρ)

/-- No operation of the kernel was rewritten for the ideal reading. -/
theorem preserves : Cert.preserves_Kernel_KernelIdeal := trivial

/-- From memories agreeing on the three arguments, both programs end with the transform of those arguments in their
    result array: the kernel by its blocks (`Cert.KernelIdeal.Transform.run`), the reference by its composed term read
    index by index (`Cert.ReferenceIdeal.RefValue.reference_eq`). -/
theorem algebraic : Cert.algebraic_KernelIdeal_ReferenceIdeal := by
  intro m ρ m' ρ' _ hagree
  refine ⟨fun c => Cert.Stft.stft
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2)),
    Cert.KernelIdeal.Transform.run m ρ, ?_⟩
  refine (θ_run Cert.ReferenceIdeal.defs _ _).mono (fun _ h c => ⟨?_, (h c).2⟩)
    (Cert.ReferenceIdeal.Value.run (F := Ideal) m' ρ')
  refine (h c).1.trans ((Cert.ReferenceIdeal.Read.val_main_v24_eq _ _ _).trans
    ((Cert.ReferenceIdeal.RefValue.reference_eq _ _ _).trans ?_))
  rw [(hagree c).1, (hagree c).2.1, (hagree c).2.2]

theorem claim : Cert.Claim :=
  ⟨Cert.Kernel.Gen.facts, Cert.KernelIdeal.Gen.facts, Cert.ReferenceIdeal.Gen.facts, Cert.Pre_finite_inputs.Gen.facts,
    frame_kernel, frame_kernelIdeal, frame_reference, preserves, algebraic⟩

end Cert.Proof

end
